-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S4096x6x4096 : Shape := ⟨3, ![4096, 6, 4096]⟩
abbrev S256x1024 : Shape := ⟨2, ![256, 1024]⟩
abbrev S256x6x1024 : Shape := ⟨3, ![256, 6, 1024]⟩
abbrev S256x1x1024 : Shape := ⟨3, ![256, 1, 1024]⟩
abbrev S4096x4096x6 : Shape := ⟨3, ![4096, 4096, 6]⟩
abbrev S4096x4096x2x3 : Shape := ⟨4, ![4096, 4096, 2, 3]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x6x4096, .f32⟩
  | .hbm, ⟨4, _⟩ => ⟨S4096x4096x6, .f32⟩
  | .hbm, ⟨5, _⟩ => ⟨S4096x4096x2x3, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x6x1024, .f32⟩
  | .local _ .vmem, ⟨7, _⟩ => ⟨S256x6x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1x1024 : S256x1024.ShapeCasts S256x1x1024
  concatenates_S256x1x1024_S256x1x1024_S256x1x1024_S256x1x1024_S256x1x1024_S256x1x1024_S256x6x1024_d1 : Shape.Concatenates [S256x1x1024, S256x1x1024, S256x1x1024, S256x1x1024, S256x1x1024, S256x1x1024] S256x6x1024 1
  inb_S256x6x1024_S256x6x1024_0_0_0 : ∀ a, (![0, 0, 0] : Fin 3 → Nat) a + S256x6x1024.size a ≤ S256x6x1024.size a
  h_S256x6x1024 : 0 < S256x6x1024.numel
  transposes_S4096x6x4096_S4096x4096x6_0_2_1 : S4096x6x4096.Transposes [0, 2, 1] S4096x4096x6
  shapeCasts_S4096x4096x6_S4096x4096x2x3 : S4096x4096x6.ShapeCasts S4096x4096x2x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x4096.size a
  hwx0_0 : ∀ i : grid0.Coords, EltTy.bits .f32 = 32 ∨ (Rect.block (s := S4096x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x4096.size a
  hwx0_1 : ∀ i : grid0.Coords, EltTy.bits .f32 = 32 ∨ (Rect.block (s := S4096x4096) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x4096.size a
  hwx0_2 : ∀ i : grid0.Coords, EltTy.bits .f32 = 32 ∨ (Rect.block (s := S4096x4096) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x6x1024.size a ≤ S4096x6x4096.size a
  hwx0_3 : ∀ i : grid0.Coords, EltTy.bits .f32 = 32 ∨ (Rect.block (s := S4096x6x4096) S256x6x1024.size (cc0_transform_3 i) (hinb0_3 i)).WholeWords (EltTy.packing .f32)

variable [Facts₀]

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x6x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x4096x1 : Shape := ⟨3, ![4096, 4096, 1]⟩
abbrev S4096x4096x3 : Shape := ⟨3, ![4096, 4096, 3]⟩
abbrev S4096x4096x1x3 : Shape := ⟨4, ![4096, 4096, 1, 3]⟩
abbrev S4096x4096x2x3 : Shape := ⟨4, ![4096, 4096, 2, 3]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096x1, .f32⟩
  | .hbm, ⟨10, _⟩ => ⟨S4096x4096x1, .f32⟩
  | .hbm, ⟨11, _⟩ => ⟨S4096x4096x1, .f32⟩
  | .hbm, ⟨12, _⟩ => ⟨S4096x4096x3, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096x1, .f32⟩
  | .hbm, ⟨17, _⟩ => ⟨S4096x4096x1, .f32⟩
  | .hbm, ⟨18, _⟩ => ⟨S4096x4096x1, .f32⟩
  | .hbm, ⟨19, _⟩ => ⟨S4096x4096x3, .f32⟩
  | .hbm, ⟨20, _⟩ => ⟨S4096x4096x1x3, .f32⟩
  | .hbm, ⟨21, _⟩ => ⟨S4096x4096x1x3, .f32⟩
  | .hbm, ⟨22, _⟩ => ⟨S4096x4096x2x3, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]

class Facts₀ : Prop where
  bcast_S4096x4096_S4096x4096x1_0_1 : S4096x4096.BroadcastsInDim S4096x4096x1 (![0, 1] : Fin 2 → Fin S4096x4096x1.rank)
  concatenates_S4096x4096x1_S4096x4096x1_S4096x4096x1_S4096x4096x3_d2 : Shape.Concatenates [S4096x4096x1, S4096x4096x1, S4096x4096x1] S4096x4096x3 2
  bcast_S4096x4096x3_S4096x4096x1x3_0_1_3 : S4096x4096x3.BroadcastsInDim S4096x4096x1x3 (![0, 1, 3] : Fin 3 → Fin S4096x4096x1x3.rank)
  concatenates_S4096x4096x1x3_S4096x4096x1x3_S4096x4096x2x3_d2 : Shape.Concatenates [S4096x4096x1x3, S4096x4096x1x3] S4096x4096x2x3 2

variable [Facts₀]

class Facts : Prop extends Facts₀ where

variable [Facts]
-- ==== Proof.Affine.lean ====
/-
  The specification: the 2×3 matrix of the plane map "translate by (tx, ty), then rotate by θ",

      ⎡ cos θ   −sin θ   cos θ · tx − sin θ · ty ⎤
      ⎣ sin θ    cos θ   sin θ · tx + cos θ · ty ⎦

  entry by entry on the extended reals, and the two arrangements of a 4096 × 4096 field of such matrices that the
  proof meets: the six entries as six planes (the middle axis of a [4096, 6, 4096] array), and the matrices themselves
  (the two trailing axes of a [4096, 4096, 2, 3] array). Entry (r, k) of a matrix is plane 3r + k.
  No law of arithmetic is needed to compare the two programs: both compute these six expressions as written,
  so nothing here asks the inputs to be finite.
-/
import Idealize.ShloMosaic.PureOps.Ideal
import Idealize.ShloMosaic.Lib.ValueIdx

noncomputable section

namespace Cert.Affine

open Idealize.ShloMosaic Idealize.ShloMosaic.ValueIdx

/-- Entry `n = 3·row + column` of the matrix of "translate by (tx, ty), then rotate by θ". -/
def entry (n : Fin 6) (tx ty th : EReal) : EReal :=
  match n with
  | ⟨0, _⟩ => Ideal.cos th
  | ⟨1, _⟩ => -(Ideal.sin th)
  | ⟨2, _⟩ => Ideal.cos th * tx - Ideal.sin th * ty
  | ⟨3, _⟩ => Ideal.sin th
  | ⟨4, _⟩ => Ideal.cos th
  | ⟨5, _⟩ => Ideal.sin th * tx + Ideal.cos th * ty
  | ⟨_ + 6, h⟩ => absurd h (Nat.not_lt.2 (Nat.le_add_left _ _))

/-- The six entries as six planes: element (b, n, c) is entry `n` of the matrix of the inputs at (b, c). -/
def planes (tx ty th : (⟨2, ![4096, 4096]⟩ : Shape).Idx → EReal) : (⟨3, ![4096, 6, 4096]⟩ : Shape).Idx → EReal :=
  fun i => entry (i 1) (tx (ix2 (n0 := 4096) (n1 := 4096) (i 0) (i 2))) (ty (ix2 (n0 := 4096) (n1 := 4096) (i 0) (i 2)))
    (th (ix2 (n0 := 4096) (n1 := 4096) (i 0) (i 2)))

/-- The field of matrices: element (b, c, r, k) is entry (r, k) of the matrix of the inputs at (b, c). -/
def matrices (tx ty th : (⟨2, ![4096, 4096]⟩ : Shape).Idx → EReal) : (⟨4, ![4096, 4096, 2, 3]⟩ : Shape).Idx → EReal :=
  fun j => entry ⟨3 * (j 2).val + (j 3).val, by
      have h2 : (j 2).val < 2 := (j 2).isLt
      have h3 : (j 3).val < 3 := (j 3).isLt
      omega⟩
    (tx (ix2 (n0 := 4096) (n1 := 4096) (j 0) (j 1))) (ty (ix2 (n0 := 4096) (n1 := 4096) (j 0) (j 1)))
    (th (ix2 (n0 := 4096) (n1 := 4096) (j 0) (j 1)))

end Cert.Affine

end
-- ==== Proof.KernelBlock.lean ====
/-
  What one grid point of the kernel stores: from its three input blocks (tx, ty, θ, each 256 × 1024) the body
  computes c = cos θ and s = sin θ, the six planes c, 0 − s, c·tx − s·ty, s, c, s·tx + c·ty, and joins them along a
  new middle axis into one 256 × 6 × 1024 block. Read at (p, n, q) that block is plane `n` at (p, q), which is entry
  `n` of the matrix of the inputs at (p, q); the only step that is not the expression as written is the
  negation, spelt `0 − s`, and `0 − x = −x` on every extended real.
-/
import proofs.«106584_j18923625906235_2_alg».proof.Proof.Gen.KernelIdeal.Skeleton
import proofs.«106584_j18923625906235_2_alg».proof.Proof.Affine
import Idealize.ShloMosaic.Lib.Pipeline.Value
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx Cert.Affine

/-- A 256 × 1024 plane viewed as 256 × 1 × 1024 reads, at (p, 0, q), the plane at (p, q): the two indices have the
    same row-major position, 1024·p + q. -/
theorem plane_apply (v : FVec Ideal S256x1024 .f32) (p : Fin 256) (q : Fin 1024) :
    shapeCast S256x1x1024 v shapeCasts_S256x1024_S256x1x1024 (ix3 p (0 : Fin 1) q) = v (ix2 p q) := by
  refine shapeCast_apply v _ _ (ix2 p q) ?_
  rw [Shape.rowMajor_val_two, Shape.rowMajor_val_three]
  show p.val * 1024 + q.val = (p.val * 1 + 0) * 1024 + q.val
  omega

/-- The six planes the body joins, as a family: plane `n` of the input blocks. -/
def plane (x0 x1 x2 : FVec Ideal S256x1024 .f32) : Fin 6 → (S256x1x1024.Idx → Ideal .f32)
  | ⟨0, _⟩ => shapeCast S256x1x1024 (cos x2) shapeCasts_S256x1024_S256x1x1024
  | ⟨1, _⟩ => shapeCast S256x1x1024 (subf (broadcast S256x1024 (Scalar.ofBits .f32 0x00000000#32)) (sin x2)) shapeCasts_S256x1024_S256x1x1024
  | ⟨2, _⟩ => shapeCast S256x1x1024 (subf (mulf (cos x2) x0) (mulf (sin x2) x1)) shapeCasts_S256x1024_S256x1x1024
  | ⟨3, _⟩ => shapeCast S256x1x1024 (sin x2) shapeCasts_S256x1024_S256x1x1024
  | ⟨4, _⟩ => shapeCast S256x1x1024 (cos x2) shapeCasts_S256x1024_S256x1x1024
  | ⟨5, _⟩ => shapeCast S256x1x1024 (addf (mulf (sin x2) x0) (mulf (cos x2) x1)) shapeCasts_S256x1024_S256x1x1024
  | ⟨_ + 6, h⟩ => absurd h (Nat.not_lt.2 (Nat.le_add_left _ _))

/-- Plane `n` at (p, 0, q) is entry `n` of the matrix of the three inputs at (p, q). -/
theorem plane_entry (x0 x1 x2 : FVec Ideal S256x1024 .f32) (n : Fin 6) (p : Fin 256) (q : Fin 1024) :
    plane x0 x1 x2 n (ix3 p (0 : Fin 1) q) = entry n (x0 (ix2 p q)) (x1 (ix2 p q)) (x2 (ix2 p q)) := by
  match n with
  | ⟨0, _⟩ => exact plane_apply (cos x2) p q
  | ⟨1, _⟩ =>
    refine (plane_apply (subf (broadcast S256x1024 (Scalar.ofBits .f32 0x00000000#32)) (sin x2)) p q).trans ?_
    show Ideal.ofBits .f32 0x00000000#32 - Ideal.sin (x2 (ix2 p q)) = -(Ideal.sin (x2 (ix2 p q)))
    rw [Ideal.ofBits_zero_f32, zero_sub]
  | ⟨2, _⟩ => exact plane_apply (subf (mulf (cos x2) x0) (mulf (sin x2) x1)) p q
  | ⟨3, _⟩ => exact plane_apply (sin x2) p q
  | ⟨4, _⟩ => exact plane_apply (cos x2) p q
  | ⟨5, _⟩ => exact plane_apply (addf (mulf (sin x2) x0) (mulf (cos x2) x1)) p q
  | ⟨_ + 6, h⟩ => exact absurd h (Nat.not_lt.2 (Nat.le_add_left _ _))

/-- The body's stored value is the join of the six planes along the middle axis. -/
theorem pay_eq (x0 x1 x2 : FVec Ideal S256x1024 .f32) :
    k0_pay1 (F := Ideal) x0 x1 x2
      = concatenate S256x6x1024 1 (List.ofFn fun n : Fin 6 => (⟨S256x1x1024, plane x0 x1 x2 n⟩ : (s : Shape) × (s.Idx → Ideal .f32)))
          concatenates_S256x1x1024_S256x1x1024_S256x1x1024_S256x1x1024_S256x1x1024_S256x1x1024_S256x6x1024_d1 := rfl

/-- THE BLOCK AT AN INDEX: what the body stores, at (p, n, q), is entry `n` of the matrix of its inputs at (p, q). -/
theorem pay_apply (x0 x1 x2 : FVec Ideal S256x1024 .f32) (p : Fin 256) (n : Fin 6) (q : Fin 1024) :
    k0_pay1 (F := Ideal) x0 x1 x2 (ix3 p n q) = entry n (x0 (ix2 p q)) (x1 (ix2 p q)) (x2 (ix2 p q)) := by
  rw [pay_eq]
  refine (concatenate_ofFn_unit_apply (t := S256x6x1024) (s₁ := S256x1x1024) (1 : Fin 3) (plane x0 x1 x2) _ rfl rfl (ix3 p n q) n rfl (ix3 p (0 : Fin 1) q) ?_).trans
    (plane_entry x0 x1 x2 n p q)
  intro b hb
  match b with
  | ⟨0, _⟩ => rfl
  | ⟨1, _⟩ => exact absurd rfl hb
  | ⟨2, _⟩ => rfl

end Cert.KernelIdeal.Block

end
-- ==== Proof.KernelArray.lean ====
/-
  From blocks to the array. The grid has 16 × 4 points; point (g, h) reads rows 256g … 256g + 255 and columns
  1024h … 1024h + 1023 of each input and writes the block of the [4096, 6, 4096] result with the same rows and
  columns and all six planes. What it writes is, element by element, `planes` of the three input arrays (the block
  at (p, n, q) is entry `n` of the matrix of the inputs at row 256g + p, column 1024h + q); the 64 blocks tile the
  result (the block holding (b, n, c) is the one of point (b / 256, c / 1024)); so after the region the result
  array is `planes` of the inputs, whole.
-/
import proofs.«106584_j18923625906235_2_alg».proof.Proof.Gen.KernelIdeal.Frame
import proofs.«106584_j18923625906235_2_alg».proof.Proof.KernelBlock
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Block Idealize.ShloMosaic.ValueIdx Cert.Affine

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 64 grid points: each input's block sits at the rows and columns of the
    output's block, the output's block takes all six planes, and the block coordinates stay in 16 × 4. -/
theorem idx_facts : ∀ t : Fin cfg0.N,
    win0_0.index t (0 : Fin 2) = win0_3.index t (0 : Fin 3) ∧ win0_0.index t (1 : Fin 2) = win0_3.index t (2 : Fin 3)
    ∧ win0_1.index t (0 : Fin 2) = win0_3.index t (0 : Fin 3) ∧ win0_1.index t (1 : Fin 2) = win0_3.index t (2 : Fin 3)
    ∧ win0_2.index t (0 : Fin 2) = win0_3.index t (0 : Fin 3) ∧ win0_2.index t (1 : Fin 2) = win0_3.index t (2 : Fin 3)
    ∧ win0_3.index t (1 : Fin 3) = 0 ∧ win0_3.index t (0 : Fin 3) ≤ 15 ∧ win0_3.index t (2 : Fin 3) ≤ 3 :=
  (by decide +kernel : ∀ t : Fin grid0.N, _)

/-- Every block of the 16 × 4 tiling is some point's. -/
theorem idx_onto : ∀ (g : Fin 16) (h : Fin 4), ∃ t : Fin cfg0.N, win0_3.index t = ![g.val, 0, h.val] :=
  (by decide +kernel : ∀ (g : Fin 16) (h : Fin 4), ∃ t : Fin grid0.N, win0_3.index t = ![g.val, 0, h.val])

/-- What a point stores, against the whole arrays: if the point's three input blocks agree at (p, q) with three
    arrays at (b, c), and `n` is the same plane, the stored block at (p, n, q) is `planes` of the arrays at (b, n, c). -/
theorem pay_planes (x0 x1 x2 : FVec Ideal S256x1024 .f32) (tx ty th : S4096x4096.Idx → EReal)
    (y : S256x6x1024.Idx) (i : S4096x6x4096.Idx) (hn : (y 1).val = (i 1).val)
    (h0 : x0 (ix2 (n0 := 256) (n1 := 1024) (y 0) (y 2)) = tx (ix2 (n0 := 4096) (n1 := 4096) (i 0) (i 2)))
    (h1 : x1 (ix2 (n0 := 256) (n1 := 1024) (y 0) (y 2)) = ty (ix2 (n0 := 4096) (n1 := 4096) (i 0) (i 2)))
    (h2 : x2 (ix2 (n0 := 256) (n1 := 1024) (y 0) (y 2)) = th (ix2 (n0 := 4096) (n1 := 4096) (i 0) (i 2))) :
    k0_pay1 (F := Ideal) x0 x1 x2 y = planes tx ty th i := by
  obtain ⟨p, n, q, rfl⟩ : ∃ (p : Fin 256) (n : Fin 6) (q : Fin 1024), y = ix3 p n q := ⟨y 0, y 1, y 2, eq_ix3 y⟩
  have h0' : x0 (ix2 p q) = tx (ix2 (n0 := 4096) (n1 := 4096) (i 0) (i 2)) := h0
  have h1' : x1 (ix2 p q) = ty (ix2 (n0 := 4096) (n1 := 4096) (i 0) (i 2)) := h1
  have h2' : x2 (ix2 p q) = th (ix2 (n0 := 4096) (n1 := 4096) (i 0) (i 2)) := h2
  have e : n = i 1 := Fin.ext hn
  rw [pay_apply, h0', h1', h2', e]
  rfl

/-- Input window 0's block at a point, element (p, q), is the first argument at the block's rows and columns. -/
theorem iblk0_apply (c : Dev nD) (t : Fin cfg0.N) (x : S256x1024.Idx) (k : S4096x4096.Idx)
    (hk0 : (k 0).val = win0_0.index t (0 : Fin 2) * 256 + (x 0).val) (hk1 : (k 1).val = win0_0.index t (1 : Fin 2) * 1024 + (x 1).val) :
    (iblk m c 0 t : Vec Ideal S256x1024 .f32) x = (V m c main_arg0 : S4096x4096.Idx → Elt Ideal .f32) k := by
  unfold iblk
  rw [View.read_apply]
  show V m c main_arg0 _ = V m c main_arg0 _
  congr 1
  funext a
  apply Fin.ext
  match a with
  | ⟨0, _⟩ => show win0_0.index t (0 : Fin 2) * 256 + 1 * (x 0).val = (k 0).val; rw [hk0]; omega
  | ⟨1, _⟩ => show win0_0.index t (1 : Fin 2) * 1024 + 1 * (x 1).val = (k 1).val; rw [hk1]; omega

/-- Input window 1's block likewise, of the second argument. -/
theorem iblk1_apply (c : Dev nD) (t : Fin cfg0.N) (x : S256x1024.Idx) (k : S4096x4096.Idx)
    (hk0 : (k 0).val = win0_1.index t (0 : Fin 2) * 256 + (x 0).val) (hk1 : (k 1).val = win0_1.index t (1 : Fin 2) * 1024 + (x 1).val) :
    (iblk m c 1 t : Vec Ideal S256x1024 .f32) x = (V m c main_arg1 : S4096x4096.Idx → Elt Ideal .f32) k := by
  unfold iblk
  rw [View.read_apply]
  show V m c main_arg1 _ = V m c main_arg1 _
  congr 1
  funext a
  apply Fin.ext
  match a with
  | ⟨0, _⟩ => show win0_1.index t (0 : Fin 2) * 256 + 1 * (x 0).val = (k 0).val; rw [hk0]; omega
  | ⟨1, _⟩ => show win0_1.index t (1 : Fin 2) * 1024 + 1 * (x 1).val = (k 1).val; rw [hk1]; omega

/-- Input window 2's block likewise, of the third argument. -/
theorem iblk2_apply (c : Dev nD) (t : Fin cfg0.N) (x : S256x1024.Idx) (k : S4096x4096.Idx)
    (hk0 : (k 0).val = win0_2.index t (0 : Fin 2) * 256 + (x 0).val) (hk1 : (k 1).val = win0_2.index t (1 : Fin 2) * 1024 + (x 1).val) :
    (iblk m c 2 t : Vec Ideal S256x1024 .f32) x = (V m c main_arg2 : S4096x4096.Idx → Elt Ideal .f32) k := by
  unfold iblk
  rw [View.read_apply]
  show V m c main_arg2 _ = V m c main_arg2 _
  congr 1
  funext a
  apply Fin.ext
  match a with
  | ⟨0, _⟩ => show win0_2.index t (0 : Fin 2) * 256 + 1 * (x 0).val = (k 0).val; rw [hk0]; omega
  | ⟨1, _⟩ => show win0_2.index t (1 : Fin 2) * 1024 + 1 * (x 1).val = (k 1).val; rw [hk1]; omega

/-- WHAT POINT `t` WRITES BACK is its block of `planes` of the argument arrays. -/
theorem flushed_eq (c : Dev nD) (t : Fin cfg0.N) :
    (dats m 0 c).flushed 3 t = ((cfg0.win 3).blk t).view.read (Elt Ideal)
      (planes (V m c main_arg0 : S4096x4096.Idx → EReal) (V m c main_arg1 : S4096x4096.Idx → EReal) (V m c main_arg2 : S4096x4096.Idx → EReal)) := by
  show (cfg0.win 3).cut (grid0.coords t) ((dats m 0 c).after 3 t) = _
  rw [after0_3]
  unfold out0_3
  rw [View.canon_unit_zero hz3]
  simp only [View.ld_unit_zero (S := S256x1024) hz2]
  obtain ⟨e0, e1, e2, e3, e4, e5, e6, -, -⟩ := idx_facts t
  funext y
  show k0_pay1 (F := Ideal) (iblk m c 0 t) (iblk m c 1 t) (iblk m c 2 t) y
    = planes (V m c main_arg0 : S4096x4096.Idx → EReal) (V m c main_arg1 : S4096x4096.Idx → EReal) (V m c main_arg2 : S4096x4096.Idx → EReal)
        (((cfg0.win 3).blk t).view.emb y)
  have c0 : ((((cfg0.win 3).blk t).view.emb y) 0).val = win0_3.index t (0 : Fin 3) * 256 + 1 * (y 0).val := rfl
  have c1 : ((((cfg0.win 3).blk t).view.emb y) 1).val = win0_3.index t (1 : Fin 3) * 6 + 1 * (y 1).val := rfl
  have c2 : ((((cfg0.win 3).blk t).view.emb y) 2).val = win0_3.index t (2 : Fin 3) * 1024 + 1 * (y 2).val := rfl
  refine pay_planes (iblk m c 0 t) (iblk m c 1 t) (iblk m c 2 t)
    (V m c main_arg0 : S4096x4096.Idx → EReal) (V m c main_arg1 : S4096x4096.Idx → EReal) (V m c main_arg2 : S4096x4096.Idx → EReal)
    y (((cfg0.win 3).blk t).view.emb y) ?_ ?_ ?_ ?_
  · rw [c1, e6]; omega
  · refine iblk0_apply m c t _ _ ?_ ?_
    · show ((((cfg0.win 3).blk t).view.emb y) 0).val = win0_0.index t (0 : Fin 2) * 256 + (y 0).val
      rw [c0, e0]; omega
    · show ((((cfg0.win 3).blk t).view.emb y) 2).val = win0_0.index t (1 : Fin 2) * 1024 + (y 2).val
      rw [c2, e1]; omega
  · refine iblk1_apply m c t _ _ ?_ ?_
    · show ((((cfg0.win 3).blk t).view.emb y) 0).val = win0_1.index t (0 : Fin 2) * 256 + (y 0).val
      rw [c0, e2]; omega
    · show ((((cfg0.win 3).blk t).view.emb y) 2).val = win0_1.index t (1 : Fin 2) * 1024 + (y 2).val
      rw [c2, e3]; omega
  · refine iblk2_apply m c t _ _ ?_ ?_
    · show ((((cfg0.win 3).blk t).view.emb y) 0).val = win0_2.index t (0 : Fin 2) * 256 + (y 0).val
      rw [c0, e4]; omega
    · show ((((cfg0.win 3).blk t).view.emb y) 2).val = win0_2.index t (1 : Fin 2) * 1024 + (y 2).val
      rw [c2, e5]; omega

/-- An index of the result array is in point `t`'s block iff each coordinate is in the block's range on its axis. -/
theorem mem_blk (t : Fin cfg0.N) (i : S4096x6x4096.Idx) :
    i ∈ ((cfg0.win 3).blk t).view.set ↔ ∀ a : Fin 3, win0_3.index t a * S256x6x1024.size a ≤ (i a).val
      ∧ (i a).val < win0_3.index t a * S256x6x1024.size a + S256x6x1024.size a := by
  show i ∈ ((View.whole main_v0).slice (win0_3.rect t)).set ↔ _
  rw [View.set_slice_whole, Rect.mem_set_unit]
  exact Iff.rfl

/-- The blocks tile the result: (b, n, c) is in the block of the point with block coordinates (b / 256, 0, c / 1024). -/
theorem cover (i : S4096x6x4096.Idx) :
    ∃ t : Fin cfg0.N, (cfg0.win 3).flush t = true ∧ i ∈ ((cfg0.win 3).blk t).view.set := by
  have hi0 : (i 0).val < 4096 := (i 0).isLt
  have hi1 : (i 1).val < 6 := (i 1).isLt
  have hi2 : (i 2).val < 4096 := (i 2).isLt
  obtain ⟨t, ht⟩ := idx_onto ⟨(i 0).val / 256, by omega⟩ ⟨(i 2).val / 1024, by omega⟩
  have q0 : win0_3.index t (0 : Fin 3) = (i 0).val / 256 := congrFun ht 0
  have q1 : win0_3.index t (1 : Fin 3) = 0 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 256 ≤ (i 0).val ∧ (i 0).val < win0_3.index t (0 : Fin 3) * 256 + 256; omega
  | ⟨1, _⟩ => show win0_3.index t (1 : Fin 3) * 6 ≤ (i 1).val ∧ (i 1).val < win0_3.index t (1 : Fin 3) * 6 + 6; omega
  | ⟨2, _⟩ => show win0_3.index t (2 : Fin 3) * 1024 ≤ (i 2).val ∧ (i 2).val < win0_3.index t (2 : Fin 3) * 1024 + 1024; omega

/-- THE RESULT ARRAY AFTER THE REGION is `planes` of the argument arrays. -/
theorem final (c : Dev nD) : (dats m 0 c).arrAt 3 cfg0.N
    = planes (V m c main_arg0 : S4096x4096.Idx → EReal) (V m c main_arg1 : S4096x4096.Idx → EReal) (V m c main_arg2 : S4096x4096.Idx → EReal) :=
  (dats m 0 c).arrAt_eq_of_cover 3 _ (fun t _ => flushed_eq m c t) cover

end Cert.KernelIdeal.Array

end
-- ==== Proof.KernelRun.lean ====
/-
  The host lines after the region and the kernel's run. The region leaves the [4096, 6, 4096] array of planes;
  the host then swaps its last two axes (element (b, c, n) of the swapped array is plane `n` at (b, c)) and splits
  the last axis of extent 6 into 2 × 3 (element (b, c, r, k) is element (b, c, 3r + k): same row-major position). So
  the program's result at (b, c, r, k) is plane 3r + k at (b, c): the field of matrices.
-/
import proofs.«106584_j18923625906235_2_alg».proof.Proof.KernelArray
import Idealize.ShloMosaic.Lib.StableHlo.Run
import Idealize.ShloMosaic.Lib.Pipeline.FrameSuffix

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Array Idealize.ShloMosaic.ValueIdx Cert.Affine

variable (m : (ℓ : Loc nD τ sig) → Buf (Elt Ideal) ℓ) (ρ : Dev nD → PrngReg)

/-- Swapping the last two axes of the planes and splitting the new last axis 6 = 2 × 3 gives the matrices. -/
theorem relayout (tx ty th : S4096x4096.Idx → EReal) :
    shapeCast S4096x4096x2x3 (transpose S4096x4096x6 [0, 2, 1] (planes tx ty th) transposes_S4096x6x4096_S4096x4096x6_0_2_1)
        shapeCasts_S4096x4096x6_S4096x4096x2x3
      = matrices tx ty th := by
  funext j
  obtain ⟨b, c, r, k, rfl⟩ : ∃ (b c : Fin 4096) (r : Fin 2) (k : Fin 3), j = ix4 b c r k := ⟨j 0, j 1, j 2, j 3, eq_ix4 j⟩
  have hn : 3 * r.val + k.val < 6 := by have := r.isLt; have := k.isLt; omega
  refine (shapeCast_apply (s := S4096x4096x6) (t := S4096x4096x2x3) _ _ (ix4 b c r k) (ix3 b c (⟨3 * r.val + k.val, hn⟩ : Fin 6)) ?_).trans ?_
  · rw [Shape.rowMajor_val_three, Shape.rowMajor_val_four]
    show (b.val * 4096 + c.val) * 6 + (3 * r.val + k.val) = ((b.val * 4096 + c.val) * 2 + r.val) * 3 + k.val
    omega
  refine (transpose_apply (s := S4096x6x4096) (t := S4096x4096x6) [0, 2, 1] (planes tx ty th) _
    (ix3 b c (⟨3 * r.val + k.val, hn⟩ : Fin 6)) (ix3 b (⟨3 * r.val + k.val, hn⟩ : Fin 6) c) ?_).trans ?_
  · intro a
    match a with
    | ⟨0, _⟩ => rfl
    | ⟨1, _⟩ => rfl
    | ⟨2, _⟩ => rfl
  rfl

/-- THE PROGRAM'S RESULT BUFFER after the host lines that follow the region: the region's result array (the planes of
    the arguments) with its last two axes swapped and the last split 2 × 3 — the field of matrices of the arguments. -/
theorem tail_eq (c : Dev nD) :
    Pipeline.afterTail₀ cfgs (dats m) 0 (V0 m) [hostOps1] c main_v2
      = matrices (m ((c.tc : Thread nD τ).loc main_arg0)) (m ((c.tc : Thread nD τ).loc main_arg1)) (m ((c.tc : Thread nD τ).loc main_arg2)) := by
  have e : Pipeline.withArrays spec0 c (V0 m c) (fun w => (dats m 0 c).arrAt w cfg0.N) (Proc.devRef .tc main_v0)
      = planes (V m c main_arg0 : S4096x4096.Idx → EReal) (V m c main_arg1 : S4096x4096.Idx → EReal) (V m c main_arg2 : S4096x4096.Idx → EReal) :=
    (Pipeline.withArrays_arr spec0 launch0.win.arr_inj c _ _ 3).trans (final m c)
  unfold Pipeline.afterTail₀
  show StableHlo.after hostOps1 _ (Proc.devRef .tc main_v2) = _
  after_results
  show shapeCast S4096x4096x2x3 (transpose S4096x4096x6 [0, 2, 1]
      (Pipeline.withArrays spec0 c (V0 m c) (fun w => (dats m 0 c).arrAt w cfg0.N) (Proc.devRef .tc main_v0))
      transposes_S4096x6x4096_S4096x4096x6_0_2_1) shapeCasts_S4096x4096x6_S4096x4096x2x3 = _
  rw [e]
  exact relayout _ _ _

/-- THE KERNEL PROGRAM'S RUN, READ: every weakly fair execution terminates with the result buffer at the field of
    matrices of the three arguments, and the arguments as they were. -/
theorem run : θ_run defs (onTc (τ := τ) (main (F := Ideal))) ⟨m, fun _ => 0, ρ⟩ fun r => ∀ c : Dev nD,
      r.2.mem ((c.tc : Thread nD τ).loc main_v2)
        = matrices (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v2 (Pipeline.mem_restRefs_of main_v2 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.Run

end
-- ==== Proof.RefValue.lean ====
/-
  The reference, read index by index. It computes c = cos θ, s = sin θ and the six expressions
  c, −s, c·tx − s·ty, s, c, s·tx + c·ty as whole 4096 × 4096 arrays, joins the first three along a new last axis
  (a row of the matrix), the last three likewise, and joins the two rows along a new axis in front of it. So the
  result at (b, c, r, k) is row `r` at (b, c, k), which is the `k`-th of that row's three arrays at (b, c): entry
  (r, k) of the matrix of the inputs at (b, c).
-/
import proofs.«106584_j18923625906235_2_alg».proof.Proof.Gen.ReferenceIdeal.Read
import proofs.«106584_j18923625906235_2_alg».proof.Proof.Affine
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Affine

/-- A 4096 × 4096 array of extended reals: the type of each argument. -/
abbrev A2 : Type := (⟨S4096x4096, .f32⟩ : BufTy).Contents (Elt Ideal)

/-- An array given a trailing axis of extent one reads, at (b, c, 0), the array at (b, c). -/
theorem idx2_of3 (b c : Fin 4096) : idx_main_v6 (ix3 b c (0 : Fin 1)) = ix2 b c := by
  funext a; match a with | ⟨0, _⟩ => rfl | ⟨1, _⟩ => rfl

/-- A row given an axis of extent one in front of its last reads, at (b, c, 0, k), the row at (b, c, k). -/
theorem idx3_of4 (b c : Fin 4096) (k : Fin 3) : idx_main_v17 (ix4 b c (0 : Fin 1) k) = ix3 b c k := by
  funext a; match a with | ⟨0, _⟩ => rfl | ⟨1, _⟩ => rfl | ⟨2, _⟩ => rfl

/-! ## The six arrays, each with its trailing unit axis, at (b, c, 0) -/

theorem v6_at (x2 : A2) (b c : Fin 4096) :
    val_main_v6 (F := Ideal) x2 (ix3 b c (0 : Fin 1)) = Ideal.cos (x2 (ix2 b c)) :=
  (val_main_v6_apply x2 _).trans (congrArg (val_main_v0 (F := Ideal) x2) (idx2_of3 b c))

theorem v7_at (x2 : A2) (b c : Fin 4096) :
    val_main_v7 (F := Ideal) x2 (ix3 b c (0 : Fin 1)) = -(Ideal.sin (x2 (ix2 b c))) :=
  (val_main_v7_apply x2 _).trans (congrArg (val_main_v2 (F := Ideal) x2) (show idx_main_v7 (ix3 b c (0 : Fin 1)) = ix2 b c from idx2_of3 b c))

theorem v8_at (x0 x1 x2 : A2) (b c : Fin 4096) :
    val_main_v8 (F := Ideal) x0 x1 x2 (ix3 b c (0 : Fin 1))
      = Ideal.cos (x2 (ix2 b c)) * x0 (ix2 b c) - Ideal.sin (x2 (ix2 b c)) * x1 (ix2 b c) :=
  (val_main_v8_apply x0 x1 x2 _).trans (congrArg (val_main_v5 (F := Ideal) x0 x1 x2) (show idx_main_v8 (ix3 b c (0 : Fin 1)) = ix2 b c from idx2_of3 b c))

theorem v13_at (x2 : A2) (b c : Fin 4096) :
    val_main_v13 (F := Ideal) x2 (ix3 b c (0 : Fin 1)) = Ideal.sin (x2 (ix2 b c)) :=
  (val_main_v13_apply x2 _).trans (congrArg (val_main_v1 (F := Ideal) x2) (show idx_main_v13 (ix3 b c (0 : Fin 1)) = ix2 b c from idx2_of3 b c))

theorem v14_at (x2 : A2) (b c : Fin 4096) :
    val_main_v14 (F := Ideal) x2 (ix3 b c (0 : Fin 1)) = Ideal.cos (x2 (ix2 b c)) :=
  (val_main_v14_apply x2 _).trans (congrArg (val_main_v0 (F := Ideal) x2) (show idx_main_v14 (ix3 b c (0 : Fin 1)) = ix2 b c from idx2_of3 b c))

theorem v15_at (x0 x1 x2 : A2) (b c : Fin 4096) :
    val_main_v15 (F := Ideal) x0 x1 x2 (ix3 b c (0 : Fin 1))
      = Ideal.sin (x2 (ix2 b c)) * x0 (ix2 b c) + Ideal.cos (x2 (ix2 b c)) * x1 (ix2 b c) :=
  (val_main_v15_apply x0 x1 x2 _).trans (congrArg (val_main_v12 (F := Ideal) x0 x1 x2) (show idx_main_v15 (ix3 b c (0 : Fin 1)) = ix2 b c from idx2_of3 b c))

/-! ## The two rows: three arrays joined along the last axis -/

/-- The three arrays of the first row, as a family. -/
def top (x0 x1 x2 : A2) : Fin 3 → (S4096x4096x1.Idx → Ideal .f32)
  | ⟨0, _⟩ => val_main_v6 (F := Ideal) x2
  | ⟨1, _⟩ => val_main_v7 (F := Ideal) x2
  | ⟨2, _⟩ => val_main_v8 (F := Ideal) x0 x1 x2
  | ⟨_ + 3, h⟩ => absurd h (Nat.not_lt.2 (Nat.le_add_left _ _))

/-- The three arrays of the second row, as a family. -/
def bottom (x0 x1 x2 : A2) : Fin 3 → (S4096x4096x1.Idx → Ideal .f32)
  | ⟨0, _⟩ => val_main_v13 (F := Ideal) x2
  | ⟨1, _⟩ => val_main_v14 (F := Ideal) x2
  | ⟨2, _⟩ => val_main_v15 (F := Ideal) x0 x1 x2
  | ⟨_ + 3, h⟩ => absurd h (Nat.not_lt.2 (Nat.le_add_left _ _))

theorem v9_eq (x0 x1 x2 : A2) : val_main_v9 (F := Ideal) x0 x1 x2
    = concatenate S4096x4096x3 2 (List.ofFn fun n : Fin 3 => (⟨S4096x4096x1, top x0 x1 x2 n⟩ : (s : Shape) × (s.Idx → Ideal .f32)))
        concatenates_S4096x4096x1_S4096x4096x1_S4096x4096x1_S4096x4096x3_d2 := rfl

theorem v16_eq (x0 x1 x2 : A2) : val_main_v16 (F := Ideal) x0 x1 x2
    = concatenate S4096x4096x3 2 (List.ofFn fun n : Fin 3 => (⟨S4096x4096x1, bottom x0 x1 x2 n⟩ : (s : Shape) × (s.Idx → Ideal .f32)))
        concatenates_S4096x4096x1_S4096x4096x1_S4096x4096x1_S4096x4096x3_d2 := rfl

/-- A join of three arrays of trailing extent one, at (b, c, k), is the `k`-th array at (b, c, 0). -/
theorem join3_at (f : Fin 3 → (S4096x4096x1.Idx → Ideal .f32)) (b c : Fin 4096) (k : Fin 3) :
    concatenate S4096x4096x3 2 (List.ofFn fun n : Fin 3 => (⟨S4096x4096x1, f n⟩ : (s : Shape) × (s.Idx → Ideal .f32)))
        concatenates_S4096x4096x1_S4096x4096x1_S4096x4096x1_S4096x4096x3_d2 (ix3 b c k) = f k (ix3 b c (0 : Fin 1)) := by
  refine concatenate_ofFn_unit_apply (t := S4096x4096x3) (s₁ := S4096x4096x1) (2 : Fin 3) f _ rfl rfl (ix3 b c k) k rfl (ix3 b c (0 : Fin 1)) ?_
  intro a ha
  match a with
  | ⟨0, _⟩ => rfl
  | ⟨1, _⟩ => rfl
  | ⟨2, _⟩ => exact absurd rfl ha

/-! ## The result: two rows joined along the axis in front of the last -/

/-- The two rows, each with its unit axis, as a family. -/
def row (x0 x1 x2 : A2) : Fin 2 → (S4096x4096x1x3.Idx → Ideal .f32)
  | ⟨0, _⟩ => val_main_v17 (F := Ideal) x0 x1 x2
  | ⟨1, _⟩ => val_main_v18 (F := Ideal) x0 x1 x2
  | ⟨_ + 2, h⟩ => absurd h (Nat.not_lt.2 (Nat.le_add_left _ _))

theorem v19_eq (x0 x1 x2 : A2) : val_main_v19 (F := Ideal) x0 x1 x2
    = concatenate S4096x4096x2x3 2 (List.ofFn fun n : Fin 2 => (⟨S4096x4096x1x3, row x0 x1 x2 n⟩ : (s : Shape) × (s.Idx → Ideal .f32)))
        concatenates_S4096x4096x1x3_S4096x4096x1x3_S4096x4096x2x3_d2 := rfl

/-- Row `r` at (b, c, 0, k) is entry (r, k) of the matrix of the inputs at (b, c). -/
theorem row_at (x0 x1 x2 : A2) (b c : Fin 4096) (r : Fin 2) (k : Fin 3) :
    row x0 x1 x2 r (ix4 b c (0 : Fin 1) k)
      = entry ⟨3 * r.val + k.val, by have := r.isLt; have := k.isLt; omega⟩ (x0 (ix2 b c)) (x1 (ix2 b c)) (x2 (ix2 b c)) := by
  have t17 : ∀ k : Fin 3, val_main_v17 (F := Ideal) x0 x1 x2 (ix4 b c (0 : Fin 1) k) = top x0 x1 x2 k (ix3 b c (0 : Fin 1)) := fun k =>
    (val_main_v17_apply x0 x1 x2 _).trans ((congrArg (val_main_v9 (F := Ideal) x0 x1 x2) (idx3_of4 b c k)).trans
      ((congrFun (v9_eq x0 x1 x2) _).trans (join3_at _ b c k)))
  have t18 : ∀ k : Fin 3, val_main_v18 (F := Ideal) x0 x1 x2 (ix4 b c (0 : Fin 1) k) = bottom x0 x1 x2 k (ix3 b c (0 : Fin 1)) := fun k =>
    (val_main_v18_apply x0 x1 x2 _).trans ((congrArg (val_main_v16 (F := Ideal) x0 x1 x2)
        (show idx_main_v18 (ix4 b c (0 : Fin 1) k) = ix3 b c k from idx3_of4 b c k)).trans
      ((congrFun (v16_eq x0 x1 x2) _).trans (join3_at _ b c k)))
  match r, k with
  | ⟨0, _⟩, ⟨0, _⟩ => exact (t17 _).trans (v6_at x2 b c)
  | ⟨0, _⟩, ⟨1, _⟩ => exact (t17 _).trans (v7_at x2 b c)
  | ⟨0, _⟩, ⟨2, _⟩ => exact (t17 _).trans (v8_at x0 x1 x2 b c)
  | ⟨1, _⟩, ⟨0, _⟩ => exact (t18 _).trans (v13_at x2 b c)
  | ⟨1, _⟩, ⟨1, _⟩ => exact (t18 _).trans (v14_at x2 b c)
  | ⟨1, _⟩, ⟨2, _⟩ => exact (t18 _).trans (v15_at x0 x1 x2 b c)

/-- THE REFERENCE'S RESULT is the field of matrices of its three arguments. -/
theorem result_eq (x0 x1 x2 : A2) : val_main_v19 (F := Ideal) x0 x1 x2 = matrices x0 x1 x2 := by
  funext j
  obtain ⟨b, c, r, k, rfl⟩ : ∃ (b c : Fin 4096) (r : Fin 2) (k : Fin 3), j = ix4 b c r k := ⟨j 0, j 1, j 2, j 3, eq_ix4 j⟩
  rw [v19_eq]
  refine (concatenate_ofFn_unit_apply (t := S4096x4096x2x3) (s₁ := S4096x4096x1x3) (2 : Fin 4) (row x0 x1 x2) _ rfl rfl (ix4 b c r k) r rfl (ix4 b c (0 : Fin 1) k) ?_).trans
    (row_at x0 x1 x2 b c r k)
  intro a ha
  match a with
  | ⟨0, _⟩ => rfl
  | ⟨1, _⟩ => rfl
  | ⟨2, _⟩ => exact absurd rfl ha
  | ⟨3, _⟩ => rfl

end Cert.ReferenceIdeal.RefValue

end
-- ==== Proof.lean ====
/-
  A kernel that builds, for every element of three 4096 × 4096 inputs tx, ty, θ, the 2 × 3 matrix of the plane map
  "translate by (tx, ty), then rotate by θ",

      ⎡ cos θ   −sin θ   cos θ · tx − sin θ · ty ⎤
      ⎣ sin θ    cos θ   sin θ · tx + cos θ · ty ⎦ ,

  against a reference that evaluates the same six expressions on whole arrays and stacks them.

  The kernel works block by block (256 rows × 1024 columns per grid point, 16 × 4 points), writes its six values as
  six planes of a [4096, 6, 4096] array, and the host then swaps the last two axes and splits 6 = 2 × 3. The reference
  stacks three arrays into each row of the matrix and the two rows into the matrix. On the extended reals the two
  results agree element by element: element (b, c, r, k) is, on both sides, entry (r, k) of the matrix of the inputs
  at (b, c) — on the kernel's side as plane 3r + k, which the swap and the split carry to (b, c, r, k) because
  6·(4096·b + c) + 3r + k is the row-major position of both indices. The two programs spell cosine, sine, product,
  sum and difference alike; the one difference is the negation, which the kernel writes 0 − s, and 0 − x = −x for
  every extended real, the infinities included. So no step uses that the inputs are finite.

  The modules: Affine (the matrix entry by entry, and the two arrangements of the field of matrices), KernelBlock (what
  one grid point stores, at an index), KernelArray (the 64 blocks tile the result array: the array of planes),
  KernelRun (the host's swap and split, and the kernel program's run read), RefValue (the reference's stacking read at
  an index). Below: the three runs and the comparison.
-/
import proofs.«106584_j18923625906235_2_alg».proof.Defs
import proofs.«106584_j18923625906235_2_alg».proof.Proof.Gen.Kernel
import proofs.«106584_j18923625906235_2_alg».proof.Proof.Gen.Kernel.Skeleton
import proofs.«106584_j18923625906235_2_alg».proof.Proof.Gen.Kernel.Launch
import proofs.«106584_j18923625906235_2_alg».proof.Proof.Gen.Kernel.Points
import proofs.«106584_j18923625906235_2_alg».proof.Proof.Gen.Kernel.Frame
import proofs.«106584_j18923625906235_2_alg».proof.Proof.Gen.KernelIdeal
import proofs.«106584_j18923625906235_2_alg».proof.Proof.Gen.KernelIdeal.Skeleton
import proofs.«106584_j18923625906235_2_alg».proof.Proof.Gen.KernelIdeal.Launch
import proofs.«106584_j18923625906235_2_alg».proof.Proof.Gen.KernelIdeal.Points
import proofs.«106584_j18923625906235_2_alg».proof.Proof.Gen.KernelIdeal.Frame
import proofs.«106584_j18923625906235_2_alg».proof.Proof.Gen.ReferenceIdeal
import proofs.«106584_j18923625906235_2_alg».proof.Proof.Gen.ReferenceIdeal.Run
import proofs.«106584_j18923625906235_2_alg».proof.Proof.Gen.ReferenceIdeal.Read
import proofs.«106584_j18923625906235_2_alg».proof.Proof.Gen.Pre_finite_inputs
import proofs.«106584_j18923625906235_2_alg».proof.Proof.KernelRun
import proofs.«106584_j18923625906235_2_alg».proof.Proof.RefValue
import Idealize.ShloMosaic.Adequacy
import Idealize.ShloMosaic.Init

noncomputable section

namespace Cert.Proof

open Idealize.ShloMosaic Idealize.SL.Sem

/-- The kernel program as printed terminates, faults nowhere and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of whole-array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the field of matrices of their (equal) arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
